-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S128 .f32) (main_arg6 : FVec F S128x4 .f32) (main_arg7 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x4 .f32 := Host.absf main_arg6
  let main_cst_8 : FVec F S_ .f32 := constant S_ .f32 0x7F800000#32
  let main_v25 : FVec F S128x4 .f32 := broadcastInDim S128x4 ![] bcast_S_S128x4 main_cst_8
  let main_v26 : IVec S128x4 1 := cmpf .olt main_v24 main_v25
  let main_c_9 : IVec S_ 1 := constantI S_ 1 1#1
  let main_v27 : IVec S_ 1 := (fun x v => Host.reduce IntOp.andi x v reducesTo_S128x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x4 .f32) (main_arg7 : FVec F S4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x4 : Shape := ⟨2, ![50000, 4]⟩
abbrev S2000x4 : Shape := ⟨2, ![2000, 4]⟩
abbrev S1x4 : Shape := ⟨2, ![1, 4]⟩

abbrev nBuf : Space → Nat
  | .hbm => 90
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x4, .f32⟩
  | .hbm, ⟨7, _⟩ => ⟨S4, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x4, .f32⟩
  | .hbm, ⟨87, _⟩ => ⟨S1x4, .f32⟩
  | .hbm, ⟨88, _⟩ => ⟨S50000x4, .f32⟩
  | .hbm, ⟨89, _⟩ => ⟨S50000x4, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x4, .f32⟩
  | .local _ .vmem, ⟨23, _⟩ => ⟨S2000x4, .f32⟩
  | .local _ .vmem, ⟨24, _⟩ => ⟨S2000x4, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x4 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x4_S128x4_0_0 : ∀ a, (![0, 0] : Fin 2 → Nat) a + S128x4.size a ≤ S128x4.size a
  h_S128x4 : 0 < S128x4.numel
  inb_S2000x4_S2000x4_0_0 : ∀ a, (![0, 0] : Fin 2 → Nat) a + S2000x4.size a ≤ S2000x4.size a
  h_S2000x4 : 0 < S2000x4.numel
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x4_S2000x4_1_0_0_1_n_n_wf : DotDims.WF S2000x128 S128x4 S2000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x4.size a ≤ S128x4.size a
  hwx4_1 : ∀ i : grid4.Coords, EltTy.bits .f32 = 32 ∨ (Rect.block (s := S128x4) S128x4.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x4.size a ≤ S50000x4.size a
  hwx4_2 : ∀ i : grid4.Coords, EltTy.bits .f32 = 32 ∨ (Rect.block (s := S50000x4) S2000x4.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x4_S2000x4_1_0_0_1_n_n : DotDims S2000x128 S128x4 S2000x4 where
  lhsContracting := [1]
  rhsContracting := [0]
  lhsNonContracting := [0]
  rhsNonContracting := [1]
  lhsBatch := []
  rhsBatch := []
  wf := dot_S2000x128_S128x4_S2000x4_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x4.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x4 : Shape := ⟨2, ![50000, 4]⟩
abbrev S1x4 : Shape := ⟨2, ![1, 4]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x4, .f32⟩
  | .hbm, ⟨7, _⟩ => ⟨S4, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x128, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000, .f32⟩
  | .hbm, ⟨90, _⟩ => ⟨S850000, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x128, .f32⟩
  | .hbm, ⟨100, _⟩ => ⟨S850000x1, .f32⟩
  | .hbm, ⟨101, _⟩ => ⟨S850000x128, .f32⟩
  | .hbm, ⟨102, _⟩ => ⟨S850000x128, .f32⟩
  | .hbm, ⟨103, _⟩ => ⟨S_, .f32⟩
  | .hbm, ⟨104, _⟩ => ⟨S50000x128, .f32⟩
  | .hbm, ⟨105, _⟩ => ⟨S850000x1, .i32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S50000x128, .f32⟩
  | .hbm, ⟨112, _⟩ => ⟨S50000x128, .f32⟩
  | .hbm, ⟨113, _⟩ => ⟨S50000x4, .f32⟩
  | .hbm, ⟨114, _⟩ => ⟨S1x4, .f32⟩
  | .hbm, ⟨115, _⟩ => ⟨S50000x4, .f32⟩
  | .hbm, ⟨116, _⟩ => ⟨S50000x4, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x4_S50000x4_1_0_0_1_n_n_wf : DotDims.WF S50000x128 S128x4 S50000x4 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf

class Facts : Prop extends Facts₀ where

variable [Facts]
-- ==== Proof.ResultRun.lean ====
/-
  The idealized kernel's run, with its result named.

  @main is eleven segments: stretches of host operations and five kernel launches. The segments' run ends in a
  thread state that holds every buffer of the core at the last boundary's contents, `Gen.W11 m ρ c` — the fold of
  the launch memory through the stretches (`StableHlo.after`) and the launches (each launch's arrays at what its
  write-backs leave). Read against the final memory, that gives the result array `main_v65` at
  `W11 m ρ c main_v65` beside the eight argument arrays at their launch contents. What that boundary value IS, as
  a function of the arguments, is the business of the modules that follow; here it is only named.
-/
import proofs.«177984_j87574383165811_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result
    array at the last boundary's contents and every argument array as launched. -/
theorem run : θ_run defs (onTc (τ := τ) (main (F := F))) ⟨m, fun _ => 0, ρ⟩ (fun r => ∀ c : Dev nD,
      r.2.mem ((c.tc : Thread nD τ).loc main_v65) = W11 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v65 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.ResultRun

end
-- ==== Proof.Layers.lean ====
/-
  The three layer functions of the network, as whole-array functions over the extended reals, and each read at an index.

  * `product128 X W` and `product4 X W`: the matrix product of a 50000-row array with a 128-row weight matrix
    (128 or 4 columns): entry (r, c) is the sum over k of X(r, k) · W(k, c).
  * `biasRelu A B`: a row vector B (kept as a 1-by-128 array) added to every row of A, then the maximum with zero.

  They are stated with the host operations the reference program applies (so that the reference's result is, term for
  term, their composition), and the lemmas below say what each holds at an index. A sum over the contracted axis is
  re-indexed by the numbers below 128 on both sides of the certificate, so the kernel's block products and these
  whole products are compared entry by entry with no algebra beyond "equal summands, equal sums".
-/
import proofs.«177984_j87574383165811_1_alg».proof.Proof.Gen.ReferenceIdeal
import Idealize.ShloMosaic.Lib.ValueIdx
import Idealize.ShloMosaic.Lib.Pipeline.Value
import Idealize.ShloMosaic.PureOps.Ideal.Laws

noncomputable section

namespace Cert.Layers

open Cert.ReferenceIdeal Cert.ReferenceIdeal.Gen Idealize.ShloMosaic Idealize.ShloMosaic.TcCoe

/-! ## The matrix products -/

/-- A 50000-by-128 array times a 128-by-128 matrix. -/
def product128 (X : FVec Ideal S50000x128 .f32) (W : FVec Ideal S128x128 .f32) : FVec Ideal S50000x128 .f32 :=
  Host.dotGeneral dot_S50000x128_S128x128_S50000x128_1_0_0_1_n_n none X W

/-- A 50000-by-128 array times a 128-by-4 matrix. -/
def product4 (X : FVec Ideal S50000x128 .f32) (W : FVec Ideal S128x4 .f32) : FVec Ideal S50000x4 .f32 :=
  Host.dotGeneral dot_S50000x128_S128x4_S50000x4_1_0_0_1_n_n none X W

theorem product128_lhs0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem product128_lhs1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem product128_rhs0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem product128_rhs1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- Entry (r, c) of the product is the sum over k of X(r, k) · W(k, c). -/
theorem product128_apply (X : FVec Ideal S50000x128 .f32) (W : FVec Ideal S128x128 .f32) (r : Fin 50000) (c : Fin 128) :
    product128 X W (ValueIdx.ix2 r c) = ∑ k : Fin 128, X (ValueIdx.ix2 r k) * W (ValueIdx.ix2 k c) := by
  unfold product128
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ValueIdx.ix2 r c) ((ValueIdx.contrEquiv1 dot_S50000x128_S128x128_S50000x128_1_0_0_1_n_n 128 rfl rfl).symm k) = ValueIdx.ix2 r k := funext fun a => Fin.ext (by
    match a with
    | ⟨0, _⟩ => exact product128_lhs0 _ _
    | ⟨1, _⟩ => exact (product128_lhs1 _ _).trans hk)
  have er : dot_S50000x128_S128x128_S50000x128_1_0_0_1_n_n.rhsIdx (ValueIdx.ix2 r c) ((ValueIdx.contrEquiv1 dot_S50000x128_S128x128_S50000x128_1_0_0_1_n_n 128 rfl rfl).symm k) = ValueIdx.ix2 k c := funext fun a => Fin.ext (by
    match a with
    | ⟨0, _⟩ => exact (product128_rhs0 _ _).trans hk
    | ⟨1, _⟩ => exact product128_rhs1 _ _)
  rw [el, er]

theorem product4_lhs0 (i : S50000x4.Idx) (q : dot_S50000x128_S128x4_S50000x4_1_0_0_1_n_n.contr.Idx) :
    (dot_S50000x128_S128x4_S50000x4_1_0_0_1_n_n.lhsIdx i q 0).val = (i 0).val := by
  unfold DotDims.lhsIdx
  rw [dif_neg (show ¬(0 : Fin S50000x128.rank) ∈ dot_S50000x128_S128x4_S50000x4_1_0_0_1_n_n.lhsBatch by decide), dif_pos (show (0 : Fin S50000x128.rank) ∈ dot_S50000x128_S128x4_S50000x4_1_0_0_1_n_n.lhsNonContracting by decide)]
  rfl
theorem product4_lhs1 (i : S50000x4.Idx) (q : dot_S50000x128_S128x4_S50000x4_1_0_0_1_n_n.contr.Idx) :
    (dot_S50000x128_S128x4_S50000x4_1_0_0_1_n_n.lhsIdx i q 1).val = (q ⟨0, by decide⟩).val :=
  dot_S50000x128_S128x4_S50000x4_1_0_0_1_n_n.lhsIdx_val_of_single rfl i q
theorem product4_rhs0 (i : S50000x4.Idx) (q : dot_S50000x128_S128x4_S50000x4_1_0_0_1_n_n.contr.Idx) :
    (dot_S50000x128_S128x4_S50000x4_1_0_0_1_n_n.rhsIdx i q 0).val = (q ⟨0, by decide⟩).val :=
  dot_S50000x128_S128x4_S50000x4_1_0_0_1_n_n.rhsIdx_val_of_single rfl i q
theorem product4_rhs1 (i : S50000x4.Idx) (q : dot_S50000x128_S128x4_S50000x4_1_0_0_1_n_n.contr.Idx) :
    (dot_S50000x128_S128x4_S50000x4_1_0_0_1_n_n.rhsIdx i q 1).val = (i 1).val := by
  unfold DotDims.rhsIdx
  rw [dif_neg (show ¬(1 : Fin S128x4.rank) ∈ dot_S50000x128_S128x4_S50000x4_1_0_0_1_n_n.rhsBatch by decide), dif_pos (show (1 : Fin S128x4.rank) ∈ dot_S50000x128_S128x4_S50000x4_1_0_0_1_n_n.rhsNonContracting by decide)]
  rfl

/-- Entry (r, c) of the product is the sum over k of X(r, k) · W(k, c). -/
theorem product4_apply (X : FVec Ideal S50000x128 .f32) (W : FVec Ideal S128x4 .f32) (r : Fin 50000) (c : Fin 4) :
    product4 X W (ValueIdx.ix2 r c) = ∑ k : Fin 128, X (ValueIdx.ix2 r k) * W (ValueIdx.ix2 k c) := by
  unfold product4
  simp only [Host.dotGeneral]
  rw [Ideal.dotGeneral_apply, ← Equiv.sum_comp (ValueIdx.contrEquiv1 dot_S50000x128_S128x4_S50000x4_1_0_0_1_n_n 128 rfl rfl).symm]
  refine Finset.sum_congr rfl fun k _ => ?_
  have hk := ValueIdx.contrEquiv1_symm_val dot_S50000x128_S128x4_S50000x4_1_0_0_1_n_n 128 rfl rfl k
  have el : dot_S50000x128_S128x4_S50000x4_1_0_0_1_n_n.lhsIdx (ValueIdx.ix2 r c) ((ValueIdx.contrEquiv1 dot_S50000x128_S128x4_S50000x4_1_0_0_1_n_n 128 rfl rfl).symm k) = ValueIdx.ix2 r k := funext fun a => Fin.ext (by
    match a with
    | ⟨0, _⟩ => exact product4_lhs0 _ _
    | ⟨1, _⟩ => exact (product4_lhs1 _ _).trans hk)
  have er : dot_S50000x128_S128x4_S50000x4_1_0_0_1_n_n.rhsIdx (ValueIdx.ix2 r c) ((ValueIdx.contrEquiv1 dot_S50000x128_S128x4_S50000x4_1_0_0_1_n_n 128 rfl rfl).symm k) = ValueIdx.ix2 k c := funext fun a => Fin.ext (by
    match a with
    | ⟨0, _⟩ => exact (product4_rhs0 _ _).trans hk
    | ⟨1, _⟩ => exact product4_rhs1 _ _)
  rw [el, er]

/-! ## Bias, then the maximum with zero -/

/-- The row vector `B` (a 1-by-128 array) added to every row of `A`, then the maximum with zero, entry by entry. -/
def biasRelu (A : FVec Ideal S50000x128 .f32) (B : FVec Ideal S1x128 .f32) : FVec Ideal S50000x128 .f32 :=
  maximumf (addf A (broadcastInDim S50000x128 ![0, 1] bcast_S1x128_S50000x128_0_1 B))
    (broadcastInDim S50000x128 ![] bcast_S_S50000x128 (constant S_ .f32 0x00000000#32))

theorem biasRelu_apply (A : FVec Ideal S50000x128 .f32) (B : FVec Ideal S1x128 .f32) (r : Fin 50000) (c : Fin 128) :
    biasRelu A B (ValueIdx.ix2 r c) = max (A (ValueIdx.ix2 r c) + B (ValueIdx.ix2 (0 : Fin 1) c)) (Ideal.ofBits .f32 0x00000000#32) := by
  unfold biasRelu
  show max (A (ValueIdx.ix2 r c) + broadcastInDim S50000x128 ![0, 1] bcast_S1x128_S50000x128_0_1 B (ValueIdx.ix2 r c))
      (broadcastInDim S50000x128 ![] bcast_S_S50000x128 (constant (F := Ideal) S_ .f32 0x00000000#32) (ValueIdx.ix2 r c)) = _
  rw [broadcastInDim_apply _ bcast_S1x128_S50000x128_0_1 B (ValueIdx.ix2 r c) (ValueIdx.ix2 (0 : Fin 1) c) (fun a => match a with
      | ⟨0, _⟩ => by show 0 = if (1 : Nat) = 1 then 0 else r.val; rw [if_pos rfl]
      | ⟨1, _⟩ => by show c.val = if (128 : Nat) = 1 then 0 else c.val; rw [if_neg (by decide)]),
    broadcastInDim_apply _ bcast_S_S50000x128 (constant (F := Ideal) S_ .f32 0x00000000#32) (ValueIdx.ix2 r c) ValueIdx.ix0 (fun a => a.elim0)]
  rfl

/-- The bias as the kernel's program prepares it — a length-128 vector recast as one row — is the bias as the
    reference prepares it — the vector broadcast along a new leading axis of extent one: entry (0, c) is entry c. -/
theorem row_of_vector (b : FVec Ideal S128 .f32) (h : S128.ShapeCasts S1x128) :
    shapeCast S1x128 b h = broadcastInDim S1x128 ![1] bcast_S128_S1x128_1 b := by
  funext i
  have hi : (i 0).val = 0 := by have := ValueIdx.idx2_lt0 i; omega
  rw [broadcastInDim_apply _ bcast_S128_S1x128_1 b i (ValueIdx.ix1 (i 1)) (fun a => match a with
      | ⟨0, _⟩ => by show (i 1).val = if (128 : Nat) = 1 then 0 else (i 1).val; rw [if_neg (by decide)])]
  refine shapeCast_apply b h i (ValueIdx.ix1 (i 1)) ?_
  rw [Shape.rowMajor_val_one, Shape.rowMajor_val_two]
  show (i 1).val = (i 0).val * 128 + (i 1).val
  omega

end Cert.Layers

end
-- ==== Proof.Network.lean ====
/-
  The network both programs compute, as one function of the eight argument arrays over the extended reals.

  From the edge list E (two rows of 800000 node numbers) both programs build the same things with the same host
  operations: the source and target lists with one self-loop per node appended; each node's degree as a scatter-add of
  ones over the targets; its inverse square root where the degree is positive, zero elsewhere; and an edge's weight as
  the product of that quantity at its two ends. One aggregation step gathers the rows of a 50000-by-128 array H at the
  sources, scales each by its edge's weight, and scatter-adds them at the targets. A layer is: product with a weight
  matrix, aggregation, bias and maximum with zero. The network is two layers, a last product with a 128-by-4 matrix,
  and a bias.

  None of the gather / scatter chain is ever opened in this certificate: the two programs apply it, operation for
  operation, to arrays that are proved equal, so it is carried as the functions below.
-/
import proofs.«177984_j87574383165811_1_alg».proof.Proof.Layers

noncomputable section

namespace Cert.Network

open Cert.ReferenceIdeal Cert.ReferenceIdeal.Gen Idealize.ShloMosaic Idealize.ShloMosaic.TcCoe Cert.Layers

/-- The edges' source nodes, then every node once (the self-loops). -/
def sources (E : IVec S2x800000 32) : IVec S850000 32 :=
  concatenate S850000 0 [⟨S800000, (shapeCast _ (extractStridedSlice S1x800000 ![0, 0] E slices_S2x800000_S1x800000_0_0) shapeCasts_S1x800000_S800000)⟩, ⟨S50000, (iotaInDim S50000 32 0)⟩] concatenates_S800000_S50000_S850000_d0

/-- The edges' target nodes, then every node once. -/
def targets (E : IVec S2x800000 32) : IVec S850000 32 :=
  concatenate S850000 0 [⟨S800000, (shapeCast _ (extractStridedSlice S1x800000 ![1, 0] E slices_S2x800000_S1x800000_1_0) shapeCasts_S1x800000_S800000)⟩, ⟨S50000, (iotaInDim S50000 32 0)⟩] concatenates_S800000_S50000_S850000_d0

/-- Per node: how many entries of the target list `D` name it — a scatter-add of ones into zeros. -/
def degreeOf (D : IVec S850000 32) : FVec Ideal S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 D) (broadcastInDim S850000 ![] bcast_S_S850000 (constant S_ .f32 0x3F800000#32))

/-- Where the flag `positive` is set the value `r`, elsewhere the scalar `z`. -/
def guardedBy (positive : IVec S50000 1) (r : FVec Ideal S50000 .f32) (z : FVec Ideal S_ .f32) : FVec Ideal S50000 .f32 :=
  select positive r (broadcastInDim S50000 ![] bcast_S_S50000 (id z))

/-- Per node: one over the square root of its degree (the number of edges and self-loops arriving at it) where that is
    positive, zero elsewhere. -/
def invSqrtDegree (E : IVec S2x800000 32) : FVec Ideal S50000 .f32 :=
  guardedBy (cmpf (F := Ideal) .ogt (degreeOf (targets E)) (broadcastInDim S50000 ![] bcast_S_S50000 (constant S_ .f32 0x00000000#32))) (Host.rsqrt (degreeOf (targets E)))
    (constant S_ .f32 0x00000000#32)

/-- Per edge, over a given per-node quantity `Dinv` and given source and target lists: `Dinv` at the edge's source times
    `Dinv` at its target (a negative node number counted from the end). -/
def edgeWeightsWith (Dinv : FVec Ideal S50000 .f32) (S D : IVec S850000 32) : FVec Ideal S850000 .f32 :=
  mulf (Host.gather gather_S50000_S850000x1_S850000_n_0_n_n_0_1_1 Dinv (broadcastInDim S850000x1 ![0] bcast_S850000_S850000x1_0 (select (cmpi .slt S (broadcastInDim S850000 ![] bcast_S_S850000 (constantI S_ 32 0#32))) (addi S (broadcastInDim S850000 ![] bcast_S_S850000 (constantI S_ 32 50000#32))) S))) (Host.gather gather_S50000_S850000x1_S850000_n_0_n_n_0_1_1 Dinv (broadcastInDim S850000x1 ![0] bcast_S850000_S850000x1_0 (select (cmpi .slt D (broadcastInDim S850000 ![] bcast_S_S850000 (constantI S_ 32 0#32))) (addi D (broadcastInDim S850000 ![] bcast_S_S850000 (constantI S_ 32 50000#32))) D)))

/-- Per edge of the graph `E`: the product of `invSqrtDegree` at its source and at its target. -/
def edgeWeights (E : IVec S2x800000 32) : FVec Ideal S850000 .f32 :=
  edgeWeightsWith (invSqrtDegree E) (sources E) (targets E)

/-- One aggregation step over given source and target lists `S`, `D` and edge weights `Nw`: row e of the gathered array is
    row S(e) of `H` times Nw(e), and the rows are added up at their targets. -/
def aggregateWith (S D : IVec S850000 32) (Nw : FVec Ideal S850000 .f32)
    (H : FVec Ideal S50000x128 .f32) : FVec Ideal S50000x128 .f32 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 D) (mulf (Host.gather gather_S50000x128_S850000x1_S850000x128_1_0_n_n_0_1_1128 H (broadcastInDim S850000x1 ![0] bcast_S850000_S850000x1_0 (select (cmpi .slt S (broadcastInDim S850000 ![] bcast_S_S850000 (constantI S_ 32 0#32))) (addi S (broadcastInDim S850000 ![] bcast_S_S850000 (constantI S_ 32 50000#32))) S))) (broadcastInDim S850000x128 ![0, 1] bcast_S850000x1_S850000x128_0_1 (broadcastInDim S850000x1 ![0] bcast_S850000_S850000x1_0 Nw)))

/-- The aggregation step of the graph `E`. -/
def aggregate (E : IVec S2x800000 32) (H : FVec Ideal S50000x128 .f32) :
    FVec Ideal S50000x128 .f32 :=
  aggregateWith (sources E) (targets E) (edgeWeights E) H

/-- A bias vector as the one-row array the layers take. -/
def biasRow (b : FVec Ideal S128 .f32) : FVec Ideal S1x128 .f32 :=
  broadcastInDim S1x128 ![1] bcast_S128_S1x128_1 b

/-- Two graph-convolution layers and a linear read-out. -/
def network (X : FVec Ideal S50000x128 .f32) (E : IVec S2x800000 32)
    (W1 : FVec Ideal S128x128 .f32) (b1 : FVec Ideal S128 .f32)
    (W2 : FVec Ideal S128x128 .f32) (b2 : FVec Ideal S128 .f32)
    (Wfc : FVec Ideal S128x4 .f32) (bfc : FVec Ideal S4 .f32) :
    FVec Ideal S50000x4 .f32 :=
  addf (product4 (biasRelu (aggregate E (product128 (biasRelu (aggregate E (product128 X W1)) (biasRow b1)) W2)) (biasRow b2)) Wfc)
    (broadcastInDim S50000x4 ![0, 1] bcast_S1x4_S50000x4_0_1 (broadcastInDim S1x4 ![1] bcast_S4_S1x4_1 bfc))

end Cert.Network

end
-- ==== Proof.Launch0.lean ====
/-
  Launch 0 of the idealized kernel: a matrix product computed 2000 rows at a time.

  Grid point t reads rows 2000·t … 2000·t + 1999 of the left array and the whole weight matrix, multiplies them on the
  matrix unit into a zero accumulator (the two narrowings to bfloat16 before it are the identity on extended reals)
  and writes the 2000-by-128 block back at the same rows. Entry (p, q) of the block is therefore the sum over k of
  left(2000·t + p, k) · weight(k, q), which is entry (2000·t + p, q) of the whole product; the 25 blocks tile the
  50000 rows, so after the launch the output array IS the whole product of the arrays the launch found.
-/
import proofs.«177984_j87574383165811_1_alg».proof.Proof.Gen.KernelIdeal.Frame
import proofs.«177984_j87574383165811_1_alg».proof.Proof.Layers

set_option maxRecDepth 16384

noncomputable section

namespace Cert.KernelIdeal.Launch0

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

theorem block_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem block_lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem block_rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem block_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One block's product: entry (p, q) of what the body stores is the sum over k of rows(p, k) · weight(k, q). -/
theorem block_product (x0 : Vec Ideal S2000x128 .f32) (x1 : Vec Ideal S128x128 .f32) (p : Fin 2000) (q : Fin 128) :
    k0_pay1 (F := Ideal) x0 x1 (ValueIdx.ix2 p q) = ∑ k : Fin 128, x0 (ValueIdx.ix2 p k) * x1 (ValueIdx.ix2 k q) := by
  unfold k0_pay1
  refine (Ideal.matmul_constant_zero_apply dot_S2000x128_S128x128_S2000x128_1_0_0_1_n_n none _ _ _).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ValueIdx.ix2 p q) ((ValueIdx.contrEquiv1 dot_S2000x128_S128x128_S2000x128_1_0_0_1_n_n 128 rfl rfl).symm k) = ValueIdx.ix2 p k := funext fun a => Fin.ext (by
    match a with
    | ⟨0, _⟩ => exact block_lhs0 _ _
    | ⟨1, _⟩ => exact (block_lhs1 _ _).trans hk)
  have er : dot_S2000x128_S128x128_S2000x128_1_0_0_1_n_n.rhsIdx (ValueIdx.ix2 p q) ((ValueIdx.contrEquiv1 dot_S2000x128_S128x128_S2000x128_1_0_0_1_n_n 128 rfl rfl).symm k) = ValueIdx.ix2 k q := funext fun a => Fin.ext (by
    match a with
    | ⟨0, _⟩ => exact (block_rhs0 _ _).trans hk
    | ⟨1, _⟩ => exact block_rhs1 _ _)
  rw [el, er]
  rfl

/-- Where the windows sit at grid point t: the row blocks of the left and output arrays at block t, everything else at 0. -/
theorem block_positions : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What grid point t writes back is block t of the whole product of the arrays as the launch finds them. -/
theorem flushed_eq (c : Dev nD) (t : Fin cfg0.N) :
    (dat0 V c).flushed 2 t
      = ((cfg0.win 2).blk t).view.read (Elt Ideal) (Cert.Layers.product128 (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4, e5⟩ := block_positions t
  have ht : t.val < 25 := t.isLt
  funext j
  obtain ⟨p, q, rfl⟩ : ∃ (p : Fin 2000) (q : Fin 128), j = ValueIdx.ix2 p q := ⟨j 0, j 1, ValueIdx.eq_ix2 j⟩
  have hp : p.val < 2000 := p.isLt
  show k0_pay1 (iblk0 V c 0 t) (iblk0 V c 1 t) (ValueIdx.ix2 p q)
      = Cert.Layers.product128 (V c main_arg0) (V c main_arg2) (((cfg0.win 2).blk t).view.emb (ValueIdx.ix2 p q))
  have hemb : ((cfg0.win 2).blk t).view.emb (ValueIdx.ix2 p q)
      = ValueIdx.ix2 (⟨t.val * 2000 + p.val, by omega⟩ : Fin 50000) q := funext fun a => Fin.ext (by
    match a with
    | ⟨0, _⟩ => show win0_2.index t (0 : Fin 2) * 2000 + 1 * p.val = t.val * 2000 + p.val; omega
    | ⟨1, _⟩ => show win0_2.index t (1 : Fin 2) * 128 + 1 * q.val = q.val; omega)
  rw [hemb, Cert.Layers.product128_apply]
  refine (block_product _ _ p q).trans (Finset.sum_congr rfl fun k _ => ?_)
  have h0 : iblk0 V c 0 t (ValueIdx.ix2 p k) = V c main_arg0 (ValueIdx.ix2 (⟨t.val * 2000 + p.val, by omega⟩ : Fin 50000) k) := by
    show V c main_arg0 (((cfg0.win 0).blk t).view.emb (ValueIdx.ix2 p k)) = _
    exact congrArg _ (funext fun a => Fin.ext (by
      match a with
      | ⟨0, _⟩ => show win0_0.index t (0 : Fin 2) * 2000 + 1 * p.val = t.val * 2000 + p.val; omega
      | ⟨1, _⟩ => show win0_0.index t (1 : Fin 2) * 128 + 1 * k.val = k.val; omega))
  have h1 : iblk0 V c 1 t (ValueIdx.ix2 k q) = V c main_arg2 (ValueIdx.ix2 k q) := by
    show V c main_arg2 (((cfg0.win 1).blk t).view.emb (ValueIdx.ix2 k q)) = _
    exact congrArg _ (funext fun a => Fin.ext (by
      match a with
      | ⟨0, _⟩ => show win0_1.index t (0 : Fin 2) * 128 + 1 * k.val = k.val; omega
      | ⟨1, _⟩ => show win0_1.index t (1 : Fin 2) * 128 + 1 * q.val = q.val; omega))
  rw [h0, h1]

/-- An index of the output array is in point t's block iff each coordinate is in the block's range on its axis. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every row lies in the block of the point numbered by its row divided by 2000. -/
theorem covered (i : S50000x128.Idx) : ∃ t : Fin cfg0.N, (cfg0.win 2).flush t = true ∧ i ∈ ((cfg0.win 2).blk t).view.set := by
  have hi0 : (i 0).val < 50000 := ValueIdx.idx2_lt0 i
  have hi1 : (i 1).val < 128 := ValueIdx.idx2_lt1 i
  have hq : (i 0).val / 2000 < 25 := by omega
  obtain ⟨e0, e1, e2, e3, e4, e5⟩ := block_positions (⟨(i 0).val / 2000, hq⟩ : Fin cfg0.N)
  have e4' : win0_2.index (⟨(i 0).val / 2000, hq⟩ : Fin cfg0.N) (0 : Fin 2) = (i 0).val / 2000 := e4
  refine ⟨⟨(i 0).val / 2000, hq⟩, flush0_2 _, ?_⟩
  rw [mem_block]
  intro a
  match a with
  | ⟨0, _⟩ =>
    show win0_2.index _ (0 : Fin 2) * 2000 ≤ (i 0).val ∧ (i 0).val < win0_2.index _ (0 : Fin 2) * 2000 + 2000
    omega
  | ⟨1, _⟩ =>
    show win0_2.index _ (1 : Fin 2) * 128 ≤ (i 1).val ∧ (i 1).val < win0_2.index _ (1 : Fin 2) * 128 + 128
    omega

/-- After the launch the output array holds the whole product of the two arrays the launch found. -/
theorem array_after (c : Dev nD) :
    (dat0 V c).arrAt 2 cfg0.N = Cert.Layers.product128 (V c main_arg0) (V c main_arg2) :=
  (dat0 V c).arrAt_eq_of_cover 2 _ (fun t _ => flushed_eq V c t) covered

end Cert.KernelIdeal.Launch0

end
-- ==== Proof.Launch1.lean ====
/-
  Launch 1 of the idealized kernel: a bias row added to every row, then the maximum with zero, 2000 rows at a time.

  Grid point t reads rows 2000·t … 2000·t + 1999 of the aggregated array and the one-row bias array, and writes back,
  at the same rows, entry (p, q) ↦ max(rows(p, q) + bias(0, q), 0). That is entry (2000·t + p, q) of the whole-array
  function; the 25 blocks tile the 50000 rows, so after the launch the output array is that function of the arrays
  the launch found.
-/
import proofs.«177984_j87574383165811_1_alg».proof.Proof.Gen.KernelIdeal.Frame
import proofs.«177984_j87574383165811_1_alg».proof.Proof.Layers

set_option maxRecDepth 16384

noncomputable section

namespace Cert.KernelIdeal.Launch1

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- One block: entry (p, q) of what the body stores is max(rows(p, q) + bias(0, q), 0). -/
theorem block_bias_relu (x0 : Vec Ideal S2000x128 .f32) (x1 : Vec Ideal S1x128 .f32) (p : Fin 2000) (q : Fin 128) :
    k1_pay1 (F := Ideal) x0 x1 (ValueIdx.ix2 p q)
      = max (x0 (ValueIdx.ix2 p q) + x1 (ValueIdx.ix2 (0 : Fin 1) q)) (Ideal.ofBits .f32 0x00000000#32) := by
  unfold k1_pay1
  rw [shapeCast_self, shapeCast_self]
  show max (x0 (ValueIdx.ix2 p q) + broadcastTo S2000x128 x1 broadcasts_S1x128_S2000x128 (ValueIdx.ix2 p q)) _ = _
  rw [broadcastTo_apply x1 broadcasts_S1x128_S2000x128 (ValueIdx.ix2 p q) (ValueIdx.ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])]
  rfl

/-- Where the windows sit at grid point t: the row blocks of the input and output arrays at block t, everything else at 0. -/
theorem block_positions : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What grid point t writes back is block t of the whole-array function of the arrays as the launch finds them. -/
theorem flushed_eq (c : Dev nD) (t : Fin cfg1.N) :
    (dat1 V c).flushed 2 t
      = ((cfg1.win 2).blk t).view.read (Elt Ideal) (Cert.Layers.biasRelu (V c main_v43) (V c main_v44)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S1x128) zero_offsets]
  obtain ⟨e0, e1, e2, e3, e4, e5⟩ := block_positions t
  have ht : t.val < 25 := t.isLt
  funext j
  obtain ⟨p, q, rfl⟩ : ∃ (p : Fin 2000) (q : Fin 128), j = ValueIdx.ix2 p q := ⟨j 0, j 1, ValueIdx.eq_ix2 j⟩
  have hp : p.val < 2000 := p.isLt
  show k1_pay1 (iblk1 V c 0 t) (iblk1 V c 1 t) (ValueIdx.ix2 p q)
      = Cert.Layers.biasRelu (V c main_v43) (V c main_v44) (((cfg1.win 2).blk t).view.emb (ValueIdx.ix2 p q))
  have hemb : ((cfg1.win 2).blk t).view.emb (ValueIdx.ix2 p q)
      = ValueIdx.ix2 (⟨t.val * 2000 + p.val, by omega⟩ : Fin 50000) q := funext fun a => Fin.ext (by
    match a with
    | ⟨0, _⟩ => show win1_2.index t (0 : Fin 2) * 2000 + 1 * p.val = t.val * 2000 + p.val; omega
    | ⟨1, _⟩ => show win1_2.index t (1 : Fin 2) * 128 + 1 * q.val = q.val; omega)
  rw [hemb, Cert.Layers.biasRelu_apply]
  refine (block_bias_relu _ _ p q).trans ?_
  have h0 : iblk1 V c 0 t (ValueIdx.ix2 p q) = V c main_v43 (ValueIdx.ix2 (⟨t.val * 2000 + p.val, by omega⟩ : Fin 50000) q) := by
    show V c main_v43 (((cfg1.win 0).blk t).view.emb (ValueIdx.ix2 p q)) = _
    exact congrArg _ (funext fun a => Fin.ext (by
      match a with
      | ⟨0, _⟩ => show win1_0.index t (0 : Fin 2) * 2000 + 1 * p.val = t.val * 2000 + p.val; omega
      | ⟨1, _⟩ => show win1_0.index t (1 : Fin 2) * 128 + 1 * q.val = q.val; omega))
  have h1 : iblk1 V c 1 t (ValueIdx.ix2 (0 : Fin 1) q) = V c main_v44 (ValueIdx.ix2 (0 : Fin 1) q) := by
    show V c main_v44 (((cfg1.win 1).blk t).view.emb (ValueIdx.ix2 (0 : Fin 1) q)) = _
    exact congrArg _ (funext fun a => Fin.ext (by
      match a with
      | ⟨0, _⟩ => show win1_1.index t (0 : Fin 2) * 1 + 1 * 0 = 0; omega
      | ⟨1, _⟩ => show win1_1.index t (1 : Fin 2) * 128 + 1 * q.val = q.val; omega))
  rw [h0, h1]

/-- An index of the output array is in point t's block iff each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Every row lies in the block of the point numbered by its row divided by 2000. -/
theorem covered (i : S50000x128.Idx) : ∃ t : Fin cfg1.N, (cfg1.win 2).flush t = true ∧ i ∈ ((cfg1.win 2).blk t).view.set := by
  have hi0 : (i 0).val < 50000 := ValueIdx.idx2_lt0 i
  have hi1 : (i 1).val < 128 := ValueIdx.idx2_lt1 i
  have hq : (i 0).val / 2000 < 25 := by omega
  obtain ⟨e0, e1, e2, e3, e4, e5⟩ := block_positions (⟨(i 0).val / 2000, hq⟩ : Fin cfg1.N)
  have e4' : win1_2.index (⟨(i 0).val / 2000, hq⟩ : Fin cfg1.N) (0 : Fin 2) = (i 0).val / 2000 := e4
  refine ⟨⟨(i 0).val / 2000, hq⟩, flush1_2 _, ?_⟩
  rw [mem_block]
  intro a
  match a with
  | ⟨0, _⟩ =>
    show win1_2.index _ (0 : Fin 2) * 2000 ≤ (i 0).val ∧ (i 0).val < win1_2.index _ (0 : Fin 2) * 2000 + 2000
    omega
  | ⟨1, _⟩ =>
    show win1_2.index _ (1 : Fin 2) * 128 ≤ (i 1).val ∧ (i 1).val < win1_2.index _ (1 : Fin 2) * 128 + 128
    omega

/-- After the launch the output array holds bias-then-maximum of the two arrays the launch found. -/
theorem array_after (c : Dev nD) :
    (dat1 V c).arrAt 2 cfg1.N = Cert.Layers.biasRelu (V c main_v43) (V c main_v44) :=
  (dat1 V c).arrAt_eq_of_cover 2 _ (fun t _ => flushed_eq V c t) covered

end Cert.KernelIdeal.Launch1

end
-- ==== Proof.Launch2.lean ====
/-
  Launch 2 of the idealized kernel: a matrix product computed 2000 rows at a time.

  Grid point t reads rows 2000·t … 2000·t + 1999 of the left array and the whole weight matrix, multiplies them on the
  matrix unit into a zero accumulator (the two narrowings to bfloat16 before it are the identity on extended reals)
  and writes the 2000-by-128 block back at the same rows. Entry (p, q) of the block is therefore the sum over k of
  left(2000·t + p, k) · weight(k, q), which is entry (2000·t + p, q) of the whole product; the 25 blocks tile the
  50000 rows, so after the launch the output array IS the whole product of the arrays the launch found.
-/
import proofs.«177984_j87574383165811_1_alg».proof.Proof.Gen.KernelIdeal.Frame
import proofs.«177984_j87574383165811_1_alg».proof.Proof.Layers

set_option maxRecDepth 16384

noncomputable section

namespace Cert.KernelIdeal.Launch2

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

theorem block_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem block_lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem block_rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem block_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One block's product: entry (p, q) of what the body stores is the sum over k of rows(p, k) · weight(k, q). -/
theorem block_product (x0 : Vec Ideal S2000x128 .f32) (x1 : Vec Ideal S128x128 .f32) (p : Fin 2000) (q : Fin 128) :
    k2_pay1 (F := Ideal) x0 x1 (ValueIdx.ix2 p q) = ∑ k : Fin 128, x0 (ValueIdx.ix2 p k) * x1 (ValueIdx.ix2 k q) := by
  unfold k2_pay1
  refine (Ideal.matmul_constant_zero_apply dot_S2000x128_S128x128_S2000x128_1_0_0_1_n_n none _ _ _).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ValueIdx.ix2 p q) ((ValueIdx.contrEquiv1 dot_S2000x128_S128x128_S2000x128_1_0_0_1_n_n 128 rfl rfl).symm k) = ValueIdx.ix2 p k := funext fun a => Fin.ext (by
    match a with
    | ⟨0, _⟩ => exact block_lhs0 _ _
    | ⟨1, _⟩ => exact (block_lhs1 _ _).trans hk)
  have er : dot_S2000x128_S128x128_S2000x128_1_0_0_1_n_n.rhsIdx (ValueIdx.ix2 p q) ((ValueIdx.contrEquiv1 dot_S2000x128_S128x128_S2000x128_1_0_0_1_n_n 128 rfl rfl).symm k) = ValueIdx.ix2 k q := funext fun a => Fin.ext (by
    match a with
    | ⟨0, _⟩ => exact (block_rhs0 _ _).trans hk
    | ⟨1, _⟩ => exact block_rhs1 _ _)
  rw [el, er]
  rw [shapeCast_self]
  rfl

/-- Where the windows sit at grid point t: the row blocks of the left and output arrays at block t, everything else at 0. -/
theorem block_positions : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What grid point t writes back is block t of the whole product of the arrays as the launch finds them. -/
theorem flushed_eq (c : Dev nD) (t : Fin cfg2.N) :
    (dat2 V c).flushed 2 t
      = ((cfg2.win 2).blk t).view.read (Elt Ideal) (Cert.Layers.product128 (V c main_v45) (V c main_arg4)) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x128) zero_offsets]
  obtain ⟨e0, e1, e2, e3, e4, e5⟩ := block_positions t
  have ht : t.val < 25 := t.isLt
  funext j
  obtain ⟨p, q, rfl⟩ : ∃ (p : Fin 2000) (q : Fin 128), j = ValueIdx.ix2 p q := ⟨j 0, j 1, ValueIdx.eq_ix2 j⟩
  have hp : p.val < 2000 := p.isLt
  show k2_pay1 (iblk2 V c 0 t) (iblk2 V c 1 t) (ValueIdx.ix2 p q)
      = Cert.Layers.product128 (V c main_v45) (V c main_arg4) (((cfg2.win 2).blk t).view.emb (ValueIdx.ix2 p q))
  have hemb : ((cfg2.win 2).blk t).view.emb (ValueIdx.ix2 p q)
      = ValueIdx.ix2 (⟨t.val * 2000 + p.val, by omega⟩ : Fin 50000) q := funext fun a => Fin.ext (by
    match a with
    | ⟨0, _⟩ => show win2_2.index t (0 : Fin 2) * 2000 + 1 * p.val = t.val * 2000 + p.val; omega
    | ⟨1, _⟩ => show win2_2.index t (1 : Fin 2) * 128 + 1 * q.val = q.val; omega)
  rw [hemb, Cert.Layers.product128_apply]
  refine (block_product _ _ p q).trans (Finset.sum_congr rfl fun k _ => ?_)
  have h0 : iblk2 V c 0 t (ValueIdx.ix2 p k) = V c main_v45 (ValueIdx.ix2 (⟨t.val * 2000 + p.val, by omega⟩ : Fin 50000) k) := by
    show V c main_v45 (((cfg2.win 0).blk t).view.emb (ValueIdx.ix2 p k)) = _
    exact congrArg _ (funext fun a => Fin.ext (by
      match a with
      | ⟨0, _⟩ => show win2_0.index t (0 : Fin 2) * 2000 + 1 * p.val = t.val * 2000 + p.val; omega
      | ⟨1, _⟩ => show win2_0.index t (1 : Fin 2) * 128 + 1 * k.val = k.val; omega))
  have h1 : iblk2 V c 1 t (ValueIdx.ix2 k q) = V c main_arg4 (ValueIdx.ix2 k q) := by
    show V c main_arg4 (((cfg2.win 1).blk t).view.emb (ValueIdx.ix2 k q)) = _
    exact congrArg _ (funext fun a => Fin.ext (by
      match a with
      | ⟨0, _⟩ => show win2_1.index t (0 : Fin 2) * 128 + 1 * k.val = k.val; omega
      | ⟨1, _⟩ => show win2_1.index t (1 : Fin 2) * 128 + 1 * q.val = q.val; omega))
  rw [h0, h1]

/-- An index of the output array is in point t's block iff each coordinate is in the block's range on its axis. -/
theorem mem_block (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Every row lies in the block of the point numbered by its row divided by 2000. -/
theorem covered (i : S50000x128.Idx) : ∃ t : Fin cfg2.N, (cfg2.win 2).flush t = true ∧ i ∈ ((cfg2.win 2).blk t).view.set := by
  have hi0 : (i 0).val < 50000 := ValueIdx.idx2_lt0 i
  have hi1 : (i 1).val < 128 := ValueIdx.idx2_lt1 i
  have hq : (i 0).val / 2000 < 25 := by omega
  obtain ⟨e0, e1, e2, e3, e4, e5⟩ := block_positions (⟨(i 0).val / 2000, hq⟩ : Fin cfg2.N)
  have e4' : win2_2.index (⟨(i 0).val / 2000, hq⟩ : Fin cfg2.N) (0 : Fin 2) = (i 0).val / 2000 := e4
  refine ⟨⟨(i 0).val / 2000, hq⟩, flush2_2 _, ?_⟩
  rw [mem_block]
  intro a
  match a with
  | ⟨0, _⟩ =>
    show win2_2.index _ (0 : Fin 2) * 2000 ≤ (i 0).val ∧ (i 0).val < win2_2.index _ (0 : Fin 2) * 2000 + 2000
    omega
  | ⟨1, _⟩ =>
    show win2_2.index _ (1 : Fin 2) * 128 ≤ (i 1).val ∧ (i 1).val < win2_2.index _ (1 : Fin 2) * 128 + 128
    omega

/-- After the launch the output array holds the whole product of the two arrays the launch found. -/
theorem array_after (c : Dev nD) :
    (dat2 V c).arrAt 2 cfg2.N = Cert.Layers.product128 (V c main_v45) (V c main_arg4) :=
  (dat2 V c).arrAt_eq_of_cover 2 _ (fun t _ => flushed_eq V c t) covered

end Cert.KernelIdeal.Launch2

end
-- ==== Proof.Launch3.lean ====
/-
  Launch 3 of the idealized kernel: a bias row added to every row, then the maximum with zero, 2000 rows at a time.

  Grid point t reads rows 2000·t … 2000·t + 1999 of the aggregated array and the one-row bias array, and writes back,
  at the same rows, entry (p, q) ↦ max(rows(p, q) + bias(0, q), 0). That is entry (2000·t + p, q) of the whole-array
  function; the 25 blocks tile the 50000 rows, so after the launch the output array is that function of the arrays
  the launch found.
-/
import proofs.«177984_j87574383165811_1_alg».proof.Proof.Gen.KernelIdeal.Frame
import proofs.«177984_j87574383165811_1_alg».proof.Proof.Layers

set_option maxRecDepth 16384

noncomputable section

namespace Cert.KernelIdeal.Launch3

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- One block: entry (p, q) of what the body stores is max(rows(p, q) + bias(0, q), 0). -/
theorem block_bias_relu (x0 : Vec Ideal S2000x128 .f32) (x1 : Vec Ideal S1x128 .f32) (p : Fin 2000) (q : Fin 128) :
    k3_pay1 (F := Ideal) x0 x1 (ValueIdx.ix2 p q)
      = max (x0 (ValueIdx.ix2 p q) + x1 (ValueIdx.ix2 (0 : Fin 1) q)) (Ideal.ofBits .f32 0x00000000#32) := by
  unfold k3_pay1
  rw [shapeCast_self, shapeCast_self]
  show max (x0 (ValueIdx.ix2 p q) + broadcastTo S2000x128 x1 broadcasts_S1x128_S2000x128 (ValueIdx.ix2 p q)) _ = _
  rw [broadcastTo_apply x1 broadcasts_S1x128_S2000x128 (ValueIdx.ix2 p q) (ValueIdx.ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])]
  rfl

/-- Where the windows sit at grid point t: the row blocks of the input and output arrays at block t, everything else at 0. -/
theorem block_positions : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What grid point t writes back is block t of the whole-array function of the arrays as the launch finds them. -/
theorem flushed_eq (c : Dev nD) (t : Fin cfg3.N) :
    (dat3 V c).flushed 2 t
      = ((cfg3.win 2).blk t).view.read (Elt Ideal) (Cert.Layers.biasRelu (V c main_v59) (V c main_v60)) := by
  show (cfg3.win 2).cut (grid3.coords t) ((dat3 V c).after 2 t) = _
  rw [after3_2]
  unfold out3_2
  rw [View.canon_unit_zero zero_offsets]
  simp only [View.ld_unit_zero (S := S2000x128) zero_offsets, View.ld_unit_zero (S := S1x128) zero_offsets]
  obtain ⟨e0, e1, e2, e3, e4, e5⟩ := block_positions t
  have ht : t.val < 25 := t.isLt
  funext j
  obtain ⟨p, q, rfl⟩ : ∃ (p : Fin 2000) (q : Fin 128), j = ValueIdx.ix2 p q := ⟨j 0, j 1, ValueIdx.eq_ix2 j⟩
  have hp : p.val < 2000 := p.isLt
  show k3_pay1 (iblk3 V c 0 t) (iblk3 V c 1 t) (ValueIdx.ix2 p q)
      = Cert.Layers.biasRelu (V c main_v59) (V c main_v60) (((cfg3.win 2).blk t).view.emb (ValueIdx.ix2 p q))
  have hemb : ((cfg3.win 2).blk t).view.emb (ValueIdx.ix2 p q)
      = ValueIdx.ix2 (⟨t.val * 2000 + p.val, by omega⟩ : Fin 50000) q := funext fun a => Fin.ext (by
    match a with
    | ⟨0, _⟩ => show win3_2.index t (0 : Fin 2) * 2000 + 1 * p.val = t.val * 2000 + p.val; omega
    | ⟨1, _⟩ => show win3_2.index t (1 : Fin 2) * 128 + 1 * q.val = q.val; omega)
  rw [hemb, Cert.Layers.biasRelu_apply]
  refine (block_bias_relu _ _ p q).trans ?_
  have h0 : iblk3 V c 0 t (ValueIdx.ix2 p q) = V c main_v59 (ValueIdx.ix2 (⟨t.val * 2000 + p.val, by omega⟩ : Fin 50000) q) := by
    show V c main_v59 (((cfg3.win 0).blk t).view.emb (ValueIdx.ix2 p q)) = _
    exact congrArg _ (funext fun a => Fin.ext (by
      match a with
      | ⟨0, _⟩ => show win3_0.index t (0 : Fin 2) * 2000 + 1 * p.val = t.val * 2000 + p.val; omega
      | ⟨1, _⟩ => show win3_0.index t (1 : Fin 2) * 128 + 1 * q.val = q.val; omega))
  have h1 : iblk3 V c 1 t (ValueIdx.ix2 (0 : Fin 1) q) = V c main_v60 (ValueIdx.ix2 (0 : Fin 1) q) := by
    show V c main_v60 (((cfg3.win 1).blk t).view.emb (ValueIdx.ix2 (0 : Fin 1) q)) = _
    exact congrArg _ (funext fun a => Fin.ext (by
      match a with
      | ⟨0, _⟩ => show win3_1.index t (0 : Fin 2) * 1 + 1 * 0 = 0; omega
      | ⟨1, _⟩ => show win3_1.index t (1 : Fin 2) * 128 + 1 * q.val = q.val; omega))
  rw [h0, h1]

/-- An index of the output array is in point t's block iff each coordinate is in the block's range on its axis. -/
theorem mem_block (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v61).slice (win3_2.rect t)).set ↔ _
  rw [View.set_slice_whole, Rect.mem_set_unit]
  exact Iff.rfl

/-- Every row lies in the block of the point numbered by its row divided by 2000. -/
theorem covered (i : S50000x128.Idx) : ∃ t : Fin cfg3.N, (cfg3.win 2).flush t = true ∧ i ∈ ((cfg3.win 2).blk t).view.set := by
  have hi0 : (i 0).val < 50000 := ValueIdx.idx2_lt0 i
  have hi1 : (i 1).val < 128 := ValueIdx.idx2_lt1 i
  have hq : (i 0).val / 2000 < 25 := by omega
  obtain ⟨e0, e1, e2, e3, e4, e5⟩ := block_positions (⟨(i 0).val / 2000, hq⟩ : Fin cfg3.N)
  have e4' : win3_2.index (⟨(i 0).val / 2000, hq⟩ : Fin cfg3.N) (0 : Fin 2) = (i 0).val / 2000 := e4
  refine ⟨⟨(i 0).val / 2000, hq⟩, flush3_2 _, ?_⟩
  rw [mem_block]
  intro a
  match a with
  | ⟨0, _⟩ =>
    show win3_2.index _ (0 : Fin 2) * 2000 ≤ (i 0).val ∧ (i 0).val < win3_2.index _ (0 : Fin 2) * 2000 + 2000
    omega
  | ⟨1, _⟩ =>
    show win3_2.index _ (1 : Fin 2) * 128 ≤ (i 1).val ∧ (i 1).val < win3_2.index _ (1 : Fin 2) * 128 + 128
    omega

/-- After the launch the output array holds bias-then-maximum of the two arrays the launch found. -/
theorem array_after (c : Dev nD) :
    (dat3 V c).arrAt 2 cfg3.N = Cert.Layers.biasRelu (V c main_v59) (V c main_v60) :=
  (dat3 V c).arrAt_eq_of_cover 2 _ (fun t _ => flushed_eq V c t) covered

end Cert.KernelIdeal.Launch3

end
-- ==== Proof.Launch4.lean ====
/-
  Launch 4 of the idealized kernel: a matrix product computed 2000 rows at a time.

  Grid point t reads rows 2000·t … 2000·t + 1999 of the left array and the whole weight matrix, multiplies them on the
  matrix unit into a zero accumulator (the two narrowings to bfloat16 before it are the identity on extended reals)
  and writes the 2000-by-4 block back at the same rows. Entry (p, q) of the block is therefore the sum over k of
  left(2000·t + p, k) · weight(k, q), which is entry (2000·t + p, q) of the whole product; the 25 blocks tile the
  50000 rows, so after the launch the output array IS the whole product of the arrays the launch found.
-/
import proofs.«177984_j87574383165811_1_alg».proof.Proof.Gen.KernelIdeal.Frame
import proofs.«177984_j87574383165811_1_alg».proof.Proof.Layers

set_option maxRecDepth 16384

noncomputable section

namespace Cert.KernelIdeal.Launch4

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

theorem block_lhs0 (i : S2000x4.Idx) (q : dot_S2000x128_S128x4_S2000x4_1_0_0_1_n_n.contr.Idx) :
    (dot_S2000x128_S128x4_S2000x4_1_0_0_1_n_n.lhsIdx i q 0).val = (i 0).val := by
  unfold DotDims.lhsIdx
  rw [dif_neg (show ¬(0 : Fin S2000x128.rank) ∈ dot_S2000x128_S128x4_S2000x4_1_0_0_1_n_n.lhsBatch by decide), dif_pos (show (0 : Fin S2000x128.rank) ∈ dot_S2000x128_S128x4_S2000x4_1_0_0_1_n_n.lhsNonContracting by decide)]
  rfl
theorem block_lhs1 (i : S2000x4.Idx) (q : dot_S2000x128_S128x4_S2000x4_1_0_0_1_n_n.contr.Idx) :
    (dot_S2000x128_S128x4_S2000x4_1_0_0_1_n_n.lhsIdx i q 1).val = (q ⟨0, by decide⟩).val :=
  dot_S2000x128_S128x4_S2000x4_1_0_0_1_n_n.lhsIdx_val_of_single rfl i q
theorem block_rhs0 (i : S2000x4.Idx) (q : dot_S2000x128_S128x4_S2000x4_1_0_0_1_n_n.contr.Idx) :
    (dot_S2000x128_S128x4_S2000x4_1_0_0_1_n_n.rhsIdx i q 0).val = (q ⟨0, by decide⟩).val :=
  dot_S2000x128_S128x4_S2000x4_1_0_0_1_n_n.rhsIdx_val_of_single rfl i q
theorem block_rhs1 (i : S2000x4.Idx) (q : dot_S2000x128_S128x4_S2000x4_1_0_0_1_n_n.contr.Idx) :
    (dot_S2000x128_S128x4_S2000x4_1_0_0_1_n_n.rhsIdx i q 1).val = (i 1).val := by
  unfold DotDims.rhsIdx
  rw [dif_neg (show ¬(1 : Fin S128x4.rank) ∈ dot_S2000x128_S128x4_S2000x4_1_0_0_1_n_n.rhsBatch by decide), dif_pos (show (1 : Fin S128x4.rank) ∈ dot_S2000x128_S128x4_S2000x4_1_0_0_1_n_n.rhsNonContracting by decide)]
  rfl

/-- One block's product: entry (p, q) of what the body stores is the sum over k of rows(p, k) · weight(k, q). -/
theorem block_product (x0 : Vec Ideal S2000x128 .f32) (x1 : Vec Ideal S128x4 .f32) (p : Fin 2000) (q : Fin 4) :
    k4_pay1 (F := Ideal) x0 x1 (ValueIdx.ix2 p q) = ∑ k : Fin 128, x0 (ValueIdx.ix2 p k) * x1 (ValueIdx.ix2 k q) := by
  unfold k4_pay1
  refine (Ideal.matmul_constant_zero_apply dot_S2000x128_S128x4_S2000x4_1_0_0_1_n_n none _ _ _).trans ?_
  rw [← Equiv.sum_comp (ValueIdx.contrEquiv1 dot_S2000x128_S128x4_S2000x4_1_0_0_1_n_n 128 rfl rfl).symm]
  refine Finset.sum_congr rfl fun k _ => ?_
  have hk := ValueIdx.contrEquiv1_symm_val dot_S2000x128_S128x4_S2000x4_1_0_0_1_n_n 128 rfl rfl k
  have el : dot_S2000x128_S128x4_S2000x4_1_0_0_1_n_n.lhsIdx (ValueIdx.ix2 p q) ((ValueIdx.contrEquiv1 dot_S2000x128_S128x4_S2000x4_1_0_0_1_n_n 128 rfl rfl).symm k) = ValueIdx.ix2 p k := funext fun a => Fin.ext (by
    match a with
    | ⟨0, _⟩ => exact block_lhs0 _ _
    | ⟨1, _⟩ => exact (block_lhs1 _ _).trans hk)
  have er : dot_S2000x128_S128x4_S2000x4_1_0_0_1_n_n.rhsIdx (ValueIdx.ix2 p q) ((ValueIdx.contrEquiv1 dot_S2000x128_S128x4_S2000x4_1_0_0_1_n_n 128 rfl rfl).symm k) = ValueIdx.ix2 k q := funext fun a => Fin.ext (by
    match a with
    | ⟨0, _⟩ => exact (block_rhs0 _ _).trans hk
    | ⟨1, _⟩ => exact block_rhs1 _ _)
  rw [el, er]
  rw [shapeCast_self]
  rfl

/-- Where the windows sit at grid point t: the row blocks of the left and output arrays at block t, everything else at 0. -/
theorem block_positions : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What grid point t writes back is block t of the whole product of the arrays as the launch finds them. -/
theorem flushed_eq (c : Dev nD) (t : Fin cfg4.N) :
    (dat4 V c).flushed 2 t
      = ((cfg4.win 2).blk t).view.read (Elt Ideal) (Cert.Layers.product4 (V c main_v61) (V c main_arg6)) := by
  show (cfg4.win 2).cut (grid4.coords t) ((dat4 V c).after 2 t) = _
  rw [after4_2]
  unfold out4_2
  rw [View.canon_unit_zero zero_offsets]
  simp only [View.ld_unit_zero (S := S2000x128) zero_offsets, View.ld_unit_zero (S := S128x4) zero_offsets]
  obtain ⟨e0, e1, e2, e3, e4, e5⟩ := block_positions t
  have ht : t.val < 25 := t.isLt
  funext j
  obtain ⟨p, q, rfl⟩ : ∃ (p : Fin 2000) (q : Fin 4), j = ValueIdx.ix2 p q := ⟨j 0, j 1, ValueIdx.eq_ix2 j⟩
  have hp : p.val < 2000 := p.isLt
  show k4_pay1 (iblk4 V c 0 t) (iblk4 V c 1 t) (ValueIdx.ix2 p q)
      = Cert.Layers.product4 (V c main_v61) (V c main_arg6) (((cfg4.win 2).blk t).view.emb (ValueIdx.ix2 p q))
  have hemb : ((cfg4.win 2).blk t).view.emb (ValueIdx.ix2 p q)
      = ValueIdx.ix2 (⟨t.val * 2000 + p.val, by omega⟩ : Fin 50000) q := funext fun a => Fin.ext (by
    match a with
    | ⟨0, _⟩ => show win4_2.index t (0 : Fin 2) * 2000 + 1 * p.val = t.val * 2000 + p.val; omega
    | ⟨1, _⟩ => show win4_2.index t (1 : Fin 2) * 4 + 1 * q.val = q.val; omega)
  rw [hemb, Cert.Layers.product4_apply]
  refine (block_product _ _ p q).trans (Finset.sum_congr rfl fun k _ => ?_)
  have h0 : iblk4 V c 0 t (ValueIdx.ix2 p k) = V c main_v61 (ValueIdx.ix2 (⟨t.val * 2000 + p.val, by omega⟩ : Fin 50000) k) := by
    show V c main_v61 (((cfg4.win 0).blk t).view.emb (ValueIdx.ix2 p k)) = _
    exact congrArg _ (funext fun a => Fin.ext (by
      match a with
      | ⟨0, _⟩ => show win4_0.index t (0 : Fin 2) * 2000 + 1 * p.val = t.val * 2000 + p.val; omega
      | ⟨1, _⟩ => show win4_0.index t (1 : Fin 2) * 128 + 1 * k.val = k.val; omega))
  have h1 : iblk4 V c 1 t (ValueIdx.ix2 k q) = V c main_arg6 (ValueIdx.ix2 k q) := by
    show V c main_arg6 (((cfg4.win 1).blk t).view.emb (ValueIdx.ix2 k q)) = _
    exact congrArg _ (funext fun a => Fin.ext (by
      match a with
      | ⟨0, _⟩ => show win4_1.index t (0 : Fin 2) * 128 + 1 * k.val = k.val; omega
      | ⟨1, _⟩ => show win4_1.index t (1 : Fin 2) * 4 + 1 * q.val = q.val; omega))
  rw [h0, h1]

/-- An index of the output array is in point t's block iff each coordinate is in the block's range on its axis. -/
theorem mem_block (t : Fin cfg4.N) (i : S50000x4.Idx) :
    i ∈ ((cfg4.win 2).blk t).view.set ↔ ∀ a : Fin 2, win4_2.index t a * S2000x4.size a ≤ (i a).val ∧ (i a).val < win4_2.index t a * S2000x4.size a + S2000x4.size a := by
  show i ∈ ((View.whole main_v62).slice (win4_2.rect t)).set ↔ _
  rw [View.set_slice_whole, Rect.mem_set_unit]
  exact Iff.rfl

/-- Every row lies in the block of the point numbered by its row divided by 2000. -/
theorem covered (i : S50000x4.Idx) : ∃ t : Fin cfg4.N, (cfg4.win 2).flush t = true ∧ i ∈ ((cfg4.win 2).blk t).view.set := by
  have hi0 : (i 0).val < 50000 := ValueIdx.idx2_lt0 i
  have hi1 : (i 1).val < 4 := ValueIdx.idx2_lt1 i
  have hq : (i 0).val / 2000 < 25 := by omega
  obtain ⟨e0, e1, e2, e3, e4, e5⟩ := block_positions (⟨(i 0).val / 2000, hq⟩ : Fin cfg4.N)
  have e4' : win4_2.index (⟨(i 0).val / 2000, hq⟩ : Fin cfg4.N) (0 : Fin 2) = (i 0).val / 2000 := e4
  refine ⟨⟨(i 0).val / 2000, hq⟩, flush4_2 _, ?_⟩
  rw [mem_block]
  intro a
  match a with
  | ⟨0, _⟩ =>
    show win4_2.index _ (0 : Fin 2) * 2000 ≤ (i 0).val ∧ (i 0).val < win4_2.index _ (0 : Fin 2) * 2000 + 2000
    omega
  | ⟨1, _⟩ =>
    show win4_2.index _ (1 : Fin 2) * 4 ≤ (i 1).val ∧ (i 1).val < win4_2.index _ (1 : Fin 2) * 4 + 4
    omega

/-- After the launch the output array holds the whole product of the two arrays the launch found. -/
theorem array_after (c : Dev nD) :
    (dat4 V c).arrAt 2 cfg4.N = Cert.Layers.product4 (V c main_v61) (V c main_arg6) :=
  (dat4 V c).arrAt_eq_of_cover 2 _ (fun t _ => flushed_eq V c t) covered

end Cert.KernelIdeal.Launch4

end
-- ==== Proof.Boundary.lean ====
/-
  The idealized kernel's buffers at the boundaries between its eleven segments, as functions of the argument arrays.

  The generated frame names the buffer contents at each boundary (`Gen.W0` … `Gen.W11`): a stretch of host operations
  takes one boundary to the next by applying its operations in order; a kernel launch leaves its arrays at what its
  write-backs leave and every other buffer as it was. This module reads the buffers that matter off that fold.
-/
import proofs.«177984_j87574383165811_1_alg».proof.Proof.Gen.KernelIdeal.Frame
import proofs.«177984_j87574383165811_1_alg».proof.Proof.Network
import proofs.«177984_j87574383165811_1_alg».proof.Proof.Launch0
import proofs.«177984_j87574383165811_1_alg».proof.Proof.Launch1
import proofs.«177984_j87574383165811_1_alg».proof.Proof.Launch2
import proofs.«177984_j87574383165811_1_alg».proof.Proof.Launch3
import proofs.«177984_j87574383165811_1_alg».proof.Proof.Launch4

set_option maxRecDepth 16384

noncomputable section

namespace Cert.KernelIdeal.Boundary

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- A buffer that no operation of a stretch writes keeps its contents across the stretch. -/
local macro "stretch_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Before the first launch: three stretches of host operations on the launch memory -/

/-- The source list. -/
theorem sources_at_entry : W3 m ρ c (Proc.devRef .tc main_v3) = Cert.Network.sources (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp
  rfl

/-- The target list. -/
theorem targets_at_entry : W3 m ρ c (Proc.devRef .tc main_v6) = Cert.Network.targets (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp
  rfl

/-- The first stretch leaves the positivity test of the degrees … -/
theorem positive_after_stretch0 : W1 m ρ c (Proc.devRef .tc main_v12)
    = cmpf (F := Ideal) .ogt (Cert.Network.degreeOf (Cert.Network.targets (m ((c : Thread nD τ).loc main_arg1)))) (broadcastInDim S50000 ![] bcast_S_S50000 (constant S_ .f32 0x00000000#32)) := by
  show StableHlo.after hostOps0 (W0 m ρ c) (Proc.devRef .tc main_v12) = _
  simp only [hostOps0]
  after_results_simp
  rfl

/-- … their inverse square roots … -/
theorem rsqrt_after_stretch0 : W1 m ρ c (Proc.devRef .tc main_v13) = Host.rsqrt (Cert.Network.degreeOf (Cert.Network.targets (m ((c : Thread nD τ).loc main_arg1)))) := by
  show StableHlo.after hostOps0 (W0 m ρ c) (Proc.devRef .tc main_v13) = _
  simp only [hostOps0]
  after_results_simp
  rfl

/-- … and a scalar zero. -/
theorem zero_after_stretch0 : W1 m ρ c (Proc.devRef .tc main_cst_2) = (constant S_ .f32 0x00000000#32 : FVec Ideal S_ .f32) := by
  show StableHlo.after hostOps0 (W0 m ρ c) (Proc.devRef .tc main_cst_2) = _
  simp only [hostOps0]
  after_results_simp

/-- The second stretch (a select between two arrays by a flag array), from any contents. -/
theorem select_of_stretch1 (V : Valuation τ sig (Elt Ideal)) : StableHlo.after hostOps0_1 V (Proc.devRef .tc main_v14)
    = Cert.Network.guardedBy (V (Proc.devRef .tc main_v12)) (V (Proc.devRef .tc main_v13)) (V (Proc.devRef .tc main_cst_2)) := by
  simp only [hostOps0_1]
  after_results_simp
  rfl

/-- After the first two stretches: the per-node inverse square root of the degree … -/
theorem degree_before_stretch2 : W2 m ρ c (Proc.devRef .tc main_v14) = Cert.Network.invSqrtDegree (m ((c : Thread nD τ).loc main_arg1)) := by
  show StableHlo.after hostOps0_1 (W1 m ρ c) (Proc.devRef .tc main_v14) = _
  rw [select_of_stretch1, positive_after_stretch0, rsqrt_after_stretch0, zero_after_stretch0]
  rfl

/-- … and the two lists, which the third stretch reads. -/
theorem sources_before_stretch2 : W2 m ρ c (Proc.devRef .tc main_v3) = Cert.Network.sources (m ((c : Thread nD τ).loc main_arg1)) := by
  show StableHlo.after hostOps0_1 (StableHlo.after hostOps0 (W0 m ρ c)) (Proc.devRef .tc main_v3) = _
  simp only [hostOps0, hostOps0_1]
  after_results_simp
  rfl
theorem targets_before_stretch2 : W2 m ρ c (Proc.devRef .tc main_v6) = Cert.Network.targets (m ((c : Thread nD τ).loc main_arg1)) := by
  show StableHlo.after hostOps0_1 (StableHlo.after hostOps0 (W0 m ρ c)) (Proc.devRef .tc main_v6) = _
  simp only [hostOps0, hostOps0_1]
  after_results_simp
  rfl

/-- The third stretch, from any contents: it leaves the edge weights of the degree term and lists it finds. -/
theorem weights_of_stretch2 (V : Valuation τ sig (Elt Ideal)) : StableHlo.after hostOps0_2 V (Proc.devRef .tc main_v29)
    = Cert.Network.edgeWeightsWith (V (Proc.devRef .tc main_v14)) (V (Proc.devRef .tc main_v3)) (V (Proc.devRef .tc main_v6)) := by
  simp only [hostOps0_2]
  after_results_simp
  rfl

/-- The edge weights. -/
theorem weights_at_entry : W3 m ρ c (Proc.devRef .tc main_v29) = Cert.Network.edgeWeights (m ((c : Thread nD τ).loc main_arg1)) := by
  show StableHlo.after hostOps0_2 (W2 m ρ c) (Proc.devRef .tc main_v29) = _
  rw [weights_of_stretch2, degree_before_stretch2, sources_before_stretch2, targets_before_stretch2]
  rfl

/-- No host operation before the first launch writes an argument array. -/
theorem arg_at_entry (b : Ref sig .tc) (hb : b = main_arg0 ∨ b = main_arg2 ∨ b = main_arg3 ∨ b = main_arg4 ∨ b = main_arg5 ∨ b = main_arg6 ∨ b = main_arg7) :
    W3 m ρ c (Proc.devRef .tc b) = m ((c : Thread nD τ).loc b) := by
  have h2 : W3 m ρ c (Proc.devRef .tc b) = W2 m ρ c (Proc.devRef .tc b) := by
    rcases hb with rfl | rfl | rfl | rfl | rfl | rfl | rfl <;> stretch_keeps hostOps0_2
  have h1 : W2 m ρ c (Proc.devRef .tc b) = W1 m ρ c (Proc.devRef .tc b) := by
    rcases hb with rfl | rfl | rfl | rfl | rfl | rfl | rfl <;> stretch_keeps hostOps0_1
  have h0 : W1 m ρ c (Proc.devRef .tc b) = W0 m ρ c (Proc.devRef .tc b) := by
    rcases hb with rfl | rfl | rfl | rfl | rfl | rfl | rfl <;> stretch_keeps hostOps0
  exact h2.trans (h1.trans (h0.trans rfl))

/-! ## What is carried across the later segments unchanged -/

/-- The first launch touches only its own three arrays. -/
theorem carried_4 (b : Ref sig .tc) (hb : b = main_v3 ∨ b = main_v6 ∨ b = main_v29 ∨ b = main_arg3 ∨ b = main_arg4 ∨ b = main_arg5 ∨ b = main_arg6 ∨ b = main_arg7) :
    W4 m ρ c (Proc.devRef .tc b) = W3 m ρ c (Proc.devRef .tc b) := by
  rcases hb with rfl | rfl | rfl | rfl | rfl | rfl | rfl | rfl <;> exact W4_of_ne m ρ c _ (by decide)

/-- The stretch after the first launch writes only its own results. -/
theorem carried_5 (b : Ref sig .tc) (hb : b = main_v3 ∨ b = main_v6 ∨ b = main_v29 ∨ b = main_arg4 ∨ b = main_arg5 ∨ b = main_arg6 ∨ b = main_arg7) :
    W5 m ρ c (Proc.devRef .tc b) = W4 m ρ c (Proc.devRef .tc b) := by
  rcases hb with rfl | rfl | rfl | rfl | rfl | rfl | rfl <;> stretch_keeps hostOps1

/-- The second launch touches only its own three arrays. -/
theorem carried_6 (b : Ref sig .tc) (hb : b = main_v3 ∨ b = main_v6 ∨ b = main_v29 ∨ b = main_arg4 ∨ b = main_arg5 ∨ b = main_arg6 ∨ b = main_arg7) :
    W6 m ρ c (Proc.devRef .tc b) = W5 m ρ c (Proc.devRef .tc b) := by
  rcases hb with rfl | rfl | rfl | rfl | rfl | rfl | rfl <;> exact W6_of_ne m ρ c _ (by decide)

/-- The third launch touches only its own three arrays. -/
theorem carried_7 (b : Ref sig .tc) (hb : b = main_v3 ∨ b = main_v6 ∨ b = main_v29 ∨ b = main_arg5 ∨ b = main_arg6 ∨ b = main_arg7) :
    W7 m ρ c (Proc.devRef .tc b) = W6 m ρ c (Proc.devRef .tc b) := by
  rcases hb with rfl | rfl | rfl | rfl | rfl | rfl <;> exact W7_of_ne m ρ c _ (by decide)

/-- The stretch after the third launch writes only its own results. -/
theorem carried_8 (b : Ref sig .tc) (hb : b = main_arg6 ∨ b = main_arg7) :
    W8 m ρ c (Proc.devRef .tc b) = W7 m ρ c (Proc.devRef .tc b) := by
  rcases hb with rfl | rfl <;> stretch_keeps hostOps3

/-- The fourth launch touches only its own three arrays. -/
theorem carried_9 (b : Ref sig .tc) (hb : b = main_arg6 ∨ b = main_arg7) :
    W9 m ρ c (Proc.devRef .tc b) = W8 m ρ c (Proc.devRef .tc b) := by
  rcases hb with rfl | rfl <;> exact W9_of_ne m ρ c _ (by decide)

/-- The fifth launch touches only its own three arrays. -/
theorem carried_10 (b : Ref sig .tc) (hb : b = main_arg7) :
    W10 m ρ c (Proc.devRef .tc b) = W9 m ρ c (Proc.devRef .tc b) := by
  subst hb; exact W10_of_ne m ρ c _ (by decide)

/-! ## The first layer -/

/-- The first launch leaves the product of the input with the first weight matrix. -/
theorem product_after_launch0 : W4 m ρ c (Proc.devRef .tc main_v30) = Cert.Layers.product128 (m ((c : Thread nD τ).loc main_arg0)) (m ((c : Thread nD τ).loc main_arg2)) := by
  refine (W4_arr m ρ c 2).trans ((Launch0.array_after (V3 m ρ) c).trans ?_)
  show Cert.Layers.product128 (W3 m ρ c (Proc.devRef .tc main_arg0)) (W3 m ρ c (Proc.devRef .tc main_arg2)) = _
  rw [arg_at_entry m ρ c main_arg0 (Or.inl rfl), arg_at_entry m ρ c main_arg2 (Or.inr (Or.inl rfl))]

/-- The stretch after it aggregates that product over the graph … -/
theorem aggregate_after_stretch1 : W5 m ρ c (Proc.devRef .tc main_v43)
    = Cert.Network.aggregate (m ((c : Thread nD τ).loc main_arg1)) (Cert.Layers.product128 (m ((c : Thread nD τ).loc main_arg0)) (m ((c : Thread nD τ).loc main_arg2))) := by
  have h : W5 m ρ c (Proc.devRef .tc main_v43) = Cert.Network.aggregateWith (W4 m ρ c (Proc.devRef .tc main_v3)) (W4 m ρ c (Proc.devRef .tc main_v6))
      (W4 m ρ c (Proc.devRef .tc main_v29)) (W4 m ρ c (Proc.devRef .tc main_v30)) := by
    show StableHlo.after hostOps1 (W4 m ρ c) (Proc.devRef .tc main_v43) = _
    simp only [hostOps1]
    after_results_simp
    rfl
  rw [h, carried_4 m ρ c main_v3 (Or.inl rfl), carried_4 m ρ c main_v6 (Or.inr (Or.inl rfl)), carried_4 m ρ c main_v29 (Or.inr (Or.inr (Or.inl rfl))),
    sources_at_entry, targets_at_entry, weights_at_entry, product_after_launch0]
  rfl

/-- … and recasts the first bias vector as one row. -/
theorem bias_after_stretch1 : W5 m ρ c (Proc.devRef .tc main_v44) = Cert.Network.biasRow (m ((c : Thread nD τ).loc main_arg3)) := by
  have h : W5 m ρ c (Proc.devRef .tc main_v44) = shapeCast S1x128 (W4 m ρ c (Proc.devRef .tc main_arg3)) shapeCasts_S128_S1x128 := by
    show StableHlo.after hostOps1 (W4 m ρ c) (Proc.devRef .tc main_v44) = _
    simp only [hostOps1]
    after_results_simp
    rfl
  rw [h, carried_4 m ρ c main_arg3 (Or.inr (Or.inr (Or.inr (Or.inl rfl)))), arg_at_entry m ρ c main_arg3 (Or.inr (Or.inr (Or.inl rfl)))]
  exact Cert.Layers.row_of_vector _ _

/-- The second launch leaves the first hidden layer. -/
theorem hidden_after_launch1 : W6 m ρ c (Proc.devRef .tc main_v45)
    = Cert.Layers.biasRelu (Cert.Network.aggregate (m ((c : Thread nD τ).loc main_arg1)) (Cert.Layers.product128 (m ((c : Thread nD τ).loc main_arg0)) (m ((c : Thread nD τ).loc main_arg2)))) (Cert.Network.biasRow (m ((c : Thread nD τ).loc main_arg3))) := by
  refine (W6_arr m ρ c 2).trans ((Launch1.array_after (V5 m ρ) c).trans ?_)
  show Cert.Layers.biasRelu (W5 m ρ c (Proc.devRef .tc main_v43)) (W5 m ρ c (Proc.devRef .tc main_v44)) = _
  rw [aggregate_after_stretch1, bias_after_stretch1]

/-! ## The second layer -/

/-- The second weight matrix reaches the third launch as launched. -/
theorem weight2_at_6 : W6 m ρ c (Proc.devRef .tc main_arg4) = (m ((c : Thread nD τ).loc main_arg4)) := by
  rw [carried_6 m ρ c main_arg4 (Or.inr (Or.inr (Or.inr (Or.inl rfl)))), carried_5 m ρ c main_arg4 (Or.inr (Or.inr (Or.inr (Or.inl rfl)))), carried_4 m ρ c main_arg4 (Or.inr (Or.inr (Or.inr (Or.inr (Or.inl rfl)))))]
  exact arg_at_entry m ρ c main_arg4 (Or.inr (Or.inr (Or.inr (Or.inl rfl))))

/-- A buffer the first three launches and the stretch between them leave alone: at the third launch's exit it holds what
    it held at the first launch's entry. -/
theorem carried_to_7 (b : Ref sig .tc) (hb : b = main_v3 ∨ b = main_v6 ∨ b = main_v29 ∨ b = main_arg5 ∨ b = main_arg6 ∨ b = main_arg7) :
    W7 m ρ c (Proc.devRef .tc b) = W3 m ρ c (Proc.devRef .tc b) := by
  rw [carried_7 m ρ c b hb]
  have hb5 : b = main_v3 ∨ b = main_v6 ∨ b = main_v29 ∨ b = main_arg4 ∨ b = main_arg5 ∨ b = main_arg6 ∨ b = main_arg7 := by
    rcases hb with rfl | rfl | rfl | rfl | rfl | rfl <;> simp
  rw [carried_6 m ρ c b hb5, carried_5 m ρ c b hb5]
  have hb4 : b = main_v3 ∨ b = main_v6 ∨ b = main_v29 ∨ b = main_arg3 ∨ b = main_arg4 ∨ b = main_arg5 ∨ b = main_arg6 ∨ b = main_arg7 := by
    rcases hb with rfl | rfl | rfl | rfl | rfl | rfl <;> simp
  exact carried_4 m ρ c b hb4

/-- The third launch leaves the product of the hidden layer with the second weight matrix. -/
theorem product_after_launch2 : W7 m ρ c (Proc.devRef .tc main_v46)
    = Cert.Layers.product128 (W6 m ρ c (Proc.devRef .tc main_v45)) (m ((c : Thread nD τ).loc main_arg4)) := by
  refine (W7_arr m ρ c 2).trans ((Launch2.array_after (V6 m ρ) c).trans ?_)
  show Cert.Layers.product128 (W6 m ρ c (Proc.devRef .tc main_v45)) (W6 m ρ c (Proc.devRef .tc main_arg4)) = _
  rw [weight2_at_6]

/-- The stretch after it aggregates that product over the same graph … -/
theorem aggregate_after_stretch3 : W8 m ρ c (Proc.devRef .tc main_v59)
    = Cert.Network.aggregate (m ((c : Thread nD τ).loc main_arg1)) (W7 m ρ c (Proc.devRef .tc main_v46)) := by
  have h : W8 m ρ c (Proc.devRef .tc main_v59) = Cert.Network.aggregateWith (W7 m ρ c (Proc.devRef .tc main_v3)) (W7 m ρ c (Proc.devRef .tc main_v6))
      (W7 m ρ c (Proc.devRef .tc main_v29)) (W7 m ρ c (Proc.devRef .tc main_v46)) := by
    show StableHlo.after hostOps3 (W7 m ρ c) (Proc.devRef .tc main_v59) = _
    simp only [hostOps3]
    after_results_simp
    rfl
  rw [h, carried_to_7 m ρ c main_v3 (Or.inl rfl), carried_to_7 m ρ c main_v6 (Or.inr (Or.inl rfl)), carried_to_7 m ρ c main_v29 (Or.inr (Or.inr (Or.inl rfl))),
    sources_at_entry, targets_at_entry, weights_at_entry]
  rfl

/-- … and recasts the second bias vector as one row. -/
theorem bias_after_stretch3 : W8 m ρ c (Proc.devRef .tc main_v60) = Cert.Network.biasRow (m ((c : Thread nD τ).loc main_arg5)) := by
  have h : W8 m ρ c (Proc.devRef .tc main_v60) = shapeCast S1x128 (W7 m ρ c (Proc.devRef .tc main_arg5)) shapeCasts_S128_S1x128 := by
    show StableHlo.after hostOps3 (W7 m ρ c) (Proc.devRef .tc main_v60) = _
    simp only [hostOps3]
    after_results_simp
    rfl
  rw [h, carried_to_7 m ρ c main_arg5 (Or.inr (Or.inr (Or.inr (Or.inl rfl)))), arg_at_entry m ρ c main_arg5 (Or.inr (Or.inr (Or.inr (Or.inr (Or.inl rfl)))))]
  exact Cert.Layers.row_of_vector _ _

/-- The fourth launch leaves the second hidden layer. -/
theorem hidden_after_launch3 : W9 m ρ c (Proc.devRef .tc main_v61)
    = Cert.Layers.biasRelu (Cert.Network.aggregate (m ((c : Thread nD τ).loc main_arg1)) (W7 m ρ c (Proc.devRef .tc main_v46))) (Cert.Network.biasRow (m ((c : Thread nD τ).loc main_arg5))) := by
  refine (W9_arr m ρ c 2).trans ((Launch3.array_after (V8 m ρ) c).trans ?_)
  show Cert.Layers.biasRelu (W8 m ρ c (Proc.devRef .tc main_v59)) (W8 m ρ c (Proc.devRef .tc main_v60)) = _
  rw [aggregate_after_stretch3, bias_after_stretch3]

/-! ## The read-out -/

/-- The read-out matrix reaches the fifth launch as launched. -/
theorem readout_at_9 : W9 m ρ c (Proc.devRef .tc main_arg6) = (m ((c : Thread nD τ).loc main_arg6)) := by
  rw [carried_9 m ρ c main_arg6 (Or.inl rfl), carried_8 m ρ c main_arg6 (Or.inl rfl), carried_to_7 m ρ c main_arg6 (Or.inr (Or.inr (Or.inr (Or.inr (Or.inl rfl)))))]
  exact arg_at_entry m ρ c main_arg6 (Or.inr (Or.inr (Or.inr (Or.inr (Or.inr (Or.inl rfl))))))

/-- The last bias reaches the last stretch as launched. -/
theorem lastbias_at_10 : W10 m ρ c (Proc.devRef .tc main_arg7) = (m ((c : Thread nD τ).loc main_arg7)) := by
  rw [carried_10 m ρ c main_arg7 rfl, carried_9 m ρ c main_arg7 (Or.inr rfl), carried_8 m ρ c main_arg7 (Or.inr rfl), carried_to_7 m ρ c main_arg7 (Or.inr (Or.inr (Or.inr (Or.inr (Or.inr rfl)))))]
  exact arg_at_entry m ρ c main_arg7 (Or.inr (Or.inr (Or.inr (Or.inr (Or.inr (Or.inr rfl))))))

/-- The fifth launch leaves the product of the second hidden layer with the read-out matrix. -/
theorem product_after_launch4 : W10 m ρ c (Proc.devRef .tc main_v62) = Cert.Layers.product4 (W9 m ρ c (Proc.devRef .tc main_v61)) (m ((c : Thread nD τ).loc main_arg6)) := by
  refine (W10_arr m ρ c 2).trans ((Launch4.array_after (V9 m ρ) c).trans ?_)
  show Cert.Layers.product4 (W9 m ρ c (Proc.devRef .tc main_v61)) (W9 m ρ c (Proc.devRef .tc main_arg6)) = _
  rw [readout_at_9]

/-- THE RESULT: at the last boundary the result array holds the network of the eight argument arrays. -/
theorem result_is_network : W11 m ρ c (Proc.devRef .tc main_v65)
    = Cert.Network.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : W11 m ρ c (Proc.devRef .tc main_v65) = (addf (W10 m ρ c (Proc.devRef .tc main_v62))
      (broadcastInDim S50000x4 ![0, 1] bcast_S1x4_S50000x4_0_1 (broadcastInDim S1x4 ![1] bcast_S4_S1x4_1 (W10 m ρ c (Proc.devRef .tc main_arg7)))) : FVec Ideal S50000x4 .f32) := by
    show StableHlo.after hostOps5 (W10 m ρ c) (Proc.devRef .tc main_v65) = _
    simp only [hostOps5]
    after_results_simp
  rw [h, lastbias_at_10, product_after_launch4, hidden_after_launch3, product_after_launch2, hidden_after_launch1]
  rfl

end Cert.KernelIdeal.Boundary

end
-- ==== Proof.ReferenceNet.lean ====
/-
  The reference program's result is the network of its argument arrays.

  Its run ends with the result at the composition of its 109 host operations applied to the launch contents; grouped
  as sources / targets / degrees / edge weights / aggregation / product / bias-and-maximum, that composition is, symbol
  for symbol, `Cert.Network.network`: the definitions below were cut along the reference's own operations, so nothing
  is computed here, the two sides only unfold to the same term.
-/
import proofs.«177984_j87574383165811_1_alg».proof.Proof.ReferenceRun
import proofs.«177984_j87574383165811_1_alg».proof.Proof.Network

set_option maxRecDepth 8192

noncomputable section

namespace Cert.ReferenceIdeal.Net

open Cert.ReferenceIdeal Cert.ReferenceIdeal.Gen Idealize.ShloMosaic Idealize.ShloMosaic.TcCoe Idealize.SL.Sem

theorem result_is_network (m : (ℓ : Loc nD τ sig) → Buf (Elt Ideal) ℓ) (c : Dev nD) :
    Cert.ReferenceIdeal.ValueP.res_main_v84 (F := Ideal) m c
      = Cert.Network.network (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v84 Cert.Network.network Cert.Network.aggregate Cert.Network.aggregateWith Cert.Network.biasRow
    Cert.Network.edgeWeights Cert.Network.edgeWeightsWith Cert.Network.invSqrtDegree Cert.Network.guardedBy Cert.Network.degreeOf Cert.Network.sources Cert.Network.targets
    Cert.Layers.product128 Cert.Layers.product4 Cert.Layers.biasRelu
  rfl

end Cert.ReferenceIdeal.Net

end
-- ==== Proof.lean ====
/-
  A two-layer graph convolution network with a linear read-out, computed by five kernel launches among stretches of host
  operations, against the same network written with whole-array operations.

  Both programs build the graph's source, target and edge-weight lists from the edge array with the same host operations,
  and both aggregate with the same gather / scale / scatter-add chain. They differ only in how a layer's dense parts are
  computed: the kernel multiplies 2000 rows at a time on the matrix unit (after narrowing to bfloat16, the identity on
  extended reals) where the reference takes one whole product, and adds the bias and takes the maximum with zero 2000
  rows at a time where the reference does so on the whole array. Entry by entry these agree — a block's entry is the
  same sum over the 128 contracted positions, the same maximum — and the 25 blocks tile the 50000 rows. So the kernel's
  result array, read off the last boundary of its run (Proof/Boundary.lean over Proof/Launch0 … Launch4), and the
  reference's composed term (Proof/ReferenceNet.lean) are one function of the arguments, `Cert.Network.network`. No law
  of arithmetic beyond "equal summands give equal sums" is used, and the finiteness of the inputs is never needed.

  The three frames are the generated ones (the reference's is its run with the result dropped), and the idealization
  rewrote nothing, so `preserves` asks nothing.
-/
import proofs.«177984_j87574383165811_1_alg».proof.Defs
import proofs.«177984_j87574383165811_1_alg».proof.Proof.Gen.Kernel
import proofs.«177984_j87574383165811_1_alg».proof.Proof.Gen.Kernel.Skeleton
import proofs.«177984_j87574383165811_1_alg».proof.Proof.Gen.Kernel.Launch
import proofs.«177984_j87574383165811_1_alg».proof.Proof.Gen.Kernel.Points
import proofs.«177984_j87574383165811_1_alg».proof.Proof.Gen.Kernel.Frame
import proofs.«177984_j87574383165811_1_alg».proof.Proof.Gen.KernelIdeal
import proofs.«177984_j87574383165811_1_alg».proof.Proof.Gen.KernelIdeal.Skeleton
import proofs.«177984_j87574383165811_1_alg».proof.Proof.Gen.KernelIdeal.Launch
import proofs.«177984_j87574383165811_1_alg».proof.Proof.Gen.KernelIdeal.Points
import proofs.«177984_j87574383165811_1_alg».proof.Proof.Gen.KernelIdeal.Frame
import proofs.«177984_j87574383165811_1_alg».proof.Proof.Gen.ReferenceIdeal
import proofs.«177984_j87574383165811_1_alg».proof.Proof.Gen.Pre_finite_inputs
import proofs.«177984_j87574383165811_1_alg».proof.Proof.ResultRun
import proofs.«177984_j87574383165811_1_alg».proof.Proof.ReferenceRun
import proofs.«177984_j87574383165811_1_alg».proof.Proof.Boundary
import proofs.«177984_j87574383165811_1_alg».proof.Proof.ReferenceNet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no launch: its frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the network of those arguments. -/
theorem algebraic : Cert.algebraic_KernelIdeal_ReferenceIdeal := by
  intro m ρ m' ρ' _ hagree
  refine ⟨fun c => Cert.Network.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Boundary.result_is_network m ρ c), (h c).2⟩)
      (Cert.KernelIdeal.ResultRun.run m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Net.result_is_network, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
